-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : FVec F S128x128 .f32) (main_arg2 : FVec F S128 .f32) (main_arg3 : IVec S800000 32) (main_arg4 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S1x128 : Shape := ⟨2, ![1, 128]⟩
abbrev S800000x128 : Shape := ⟨2, ![800000, 128]⟩

abbrev nBuf : Space → Nat
  | .hbm => 34
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S50000x128, .bf16⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .bf16⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x1, .f32⟩
  | .local _ .vmem, ⟨5, _⟩ => ⟨S5000x1, .f32⟩
  | .local _ .vmem, ⟨6, _⟩ => ⟨S5000x128, .bf16⟩
  | .local _ .vmem, ⟨7, _⟩ => ⟨S5000x128, .bf16⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S5000x128_S5000x128 : S5000x128.ShapeCasts S5000x128
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .bf16 = 32 ∨ (Rect.block (s := S50000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S50000x1 : Shape := ⟨2, ![50000, 1]⟩
abbrev S800000x128 : Shape := ⟨2, ![800000, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x1, .f32⟩
  | .hbm, ⟨22, _⟩ => ⟨S50000x128, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x1, .f32⟩
  | .hbm, ⟨39, _⟩ => ⟨S50000x128, .f32⟩
  | .hbm, ⟨40, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with its result named: every weakly fair execution of @main ends with the result buffer at the
  contents the last segment boundary assigns it (the fold through @main's four segments: a host stretch, region 0, a host
  stretch, region 1), the arguments as launched.
-/
import proofs.«175963_j33956011442288_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the segments, as for the frame, with the final state read at the result buffer too: the last
    thread state holds every unscoped buffer at the last boundary's contents, and the result is one of them. -/
theorem run_result : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Run

end
-- ==== Proof.GraphLayer.lean ====
/-
  One graph-convolution layer with symmetric degree scaling, on the extended reals.

  With node features `X` (`n` rows of 128), weights `W` (128 by 128), a bias `b` and one scale `d r` per row
  (the inverse square root of the node's degree), the layer is two row-local steps around a sum over edges:

  * `scaledProjection`: entry `(r, c)` is `(∑ k, X (r, k) * W (k, c) + b c) * d r`;
  * `scaledSum`: entry `(r, c)` is `(H (r, c) + S (r, c)) * d r`, where `S` is the sum over incoming edges.

  Both depend on row `r` of their matrix operands and on entry `r` of the scale only, so a block of consecutive rows of the
  result is the same function of the operands' blocks: the extent `n` is a parameter.
-/
import Idealize.ShloMosaic.PureOps.Ideal
import Idealize.ShloMosaic.Lib.ValueIdx

noncomputable section

namespace Cert.GraphLayer

open Idealize.ShloMosaic Idealize.ShloMosaic.ValueIdx

/-- The projected features plus the bias, each row scaled by its own factor. -/
def scaledProjection {n : ℕ} (X : (⟨2, ![n, 128]⟩ : Shape).Idx → EReal) (W : (⟨2, ![128, 128]⟩ : Shape).Idx → EReal)
    (b : (⟨1, ![128]⟩ : Shape).Idx → EReal) (d : (⟨2, ![n, 1]⟩ : Shape).Idx → EReal) :
    (⟨2, ![n, 128]⟩ : Shape).Idx → EReal :=
  fun i => ((∑ k : Fin 128, X (ix2 (i 0) k) * W (ix2 k (i 1))) + b (ix1 (i 1))) * d (ix2 (i 0) (0 : Fin 1))

theorem scaledProjection_apply {n : ℕ} (X : (⟨2, ![n, 128]⟩ : Shape).Idx → EReal) (W : (⟨2, ![128, 128]⟩ : Shape).Idx → EReal)
    (b : (⟨1, ![128]⟩ : Shape).Idx → EReal) (d : (⟨2, ![n, 1]⟩ : Shape).Idx → EReal) (r : Fin n) (c : Fin 128) :
    scaledProjection X W b d (ix2 r c)
      = ((∑ k : Fin 128, X (ix2 r k) * W (ix2 k c)) + b (ix1 c)) * d (ix2 r (0 : Fin 1)) := rfl

/-- Two matrices added, each row of the sum scaled by its own factor. -/
def scaledSum {n : ℕ} (H S : (⟨2, ![n, 128]⟩ : Shape).Idx → EReal) (d : (⟨2, ![n, 1]⟩ : Shape).Idx → EReal) :
    (⟨2, ![n, 128]⟩ : Shape).Idx → EReal :=
  fun i => (H i + S i) * d (ix2 (i 0) (0 : Fin 1))

theorem scaledSum_apply {n : ℕ} (H S : (⟨2, ![n, 128]⟩ : Shape).Idx → EReal) (d : (⟨2, ![n, 1]⟩ : Shape).Idx → EReal)
    (r : Fin n) (c : Fin 128) :
    scaledSum H S d (ix2 r c) = (H (ix2 r c) + S (ix2 r c)) * d (ix2 r (0 : Fin 1)) := rfl

end Cert.GraphLayer

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.ProjectionBlock.lean ====
/-
  Region 0's body on one block of rows: the bias-added projection of the block's rows, each row scaled by its own factor.
-/
import proofs.«175963_j33956011442288_2_alg».proof.Proof.Gen.KernelIdeal.Skeleton
import proofs.«175963_j33956011442288_2_alg».proof.Proof.GraphLayer
import proofs.«175963_j33956011442288_2_alg».proof.Proof.LibDenseLayers
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx Cert.GraphLayer

/-- The body's stored value, from the four blocks it loads (5000 rows of `X`, all of `W` and `b`, 5000 row scales): entry
    `(p, q)` is the row-by-column sum over the 128 contracted coordinates, plus the bias entry `q` (one row repeated over
    the block), times the scale of row `p` (one column repeated over the block). The roundings to bf16 are the identity
    on the extended reals. -/
theorem projection_block (x0 : Vec Ideal S5000x128 .f32) (x1 : Vec Ideal S128x128 .f32) (x2 : Vec Ideal S128 .f32)
    (x3 : Vec Ideal S5000x1 .f32) :
    k0_pay1 (F := Ideal) x0 x1 x2 x3 = scaledProjection (n := 5000) x0 x1 x2 x3 := by
  funext j
  obtain ⟨p, q, rfl⟩ : ∃ (p : Fin 5000) (q : Fin 128), j = ix2 p q := ⟨j 0, j 1, eq_ix2 j⟩
  rw [scaledProjection_apply]
  unfold k0_pay1
  rw [truncf_apply, mulf_apply, addf_apply]
  rw [DenseLayers.broadcastTo_column_apply, shapeCast_self, broadcastTo_1b_ab_apply, shapeCast_a_1a_apply]
  refine congrArg (fun z => (z + x2 (ix1 q)) * x3 (ix2 p (0 : Fin 1))) ?_
  exact DenseLayers.matmul_rowcol_zero_apply (m := 5000) (k := 128) (n := 128)
    Facts₀.dot_S5000x128_S128x128_S5000x128_1_0_0_1_n_n_wf none
    (truncf .bf16 x0 bitsLt_bf16_f32) (truncf .bf16 x1 bitsLt_bf16_f32) p q

end Cert.KernelIdeal.Blocks

end
-- ==== Proof.ProjectionArray.lean ====
/-
  Region 0's output array: the ten row blocks the grid points write back are the row blocks of ONE function of the arrays
  the region finds, the scaled projection, and they tile the array.
-/
import proofs.«175963_j33956011442288_2_alg».proof.Proof.Gen.KernelIdeal.Frame
import proofs.«175963_j33956011442288_2_alg».proof.Proof.ProjectionBlock

set_option maxRecDepth 16384

noncomputable section

namespace Cert.KernelIdeal.Arrays

open Cert.KernelIdeal Cert.KernelIdeal.Gen Cert.KernelIdeal.Blocks Idealize.ShloMosaic Idealize.ShloMosaic.ValueIdx
open Idealize.ShloMosaic.TcCoe Idealize.SL.Sem Cert.GraphLayer
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- Where each window's block sits at grid point `t`: the row-blocked windows (the features, the row scales, the output) at
    row block `t`, the weights and the bias at their one block. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt0 (t : Fin cfg0.N) : t.val < 10 := lt_of_lt_of_eq t.isLt (show cfg0.N = 10 from N_0)

/-- Row `p` of the features' block at point `t` is row `5000 t + p` of the array. -/
theorem features_block (c : Dev nD) (t : Fin cfg0.N) (p : Fin 5000) (k : Fin 128) (r : Fin 50000) (hr : r.val = t.val * 5000 + p.val) :
    iblk0 V c 0 t (ix2 p k) = V c main_arg0 (ix2 r k) := by
  show V c main_arg0 (((cfg0.win 0).blk t).view.emb (ix2 p k)) = V c main_arg0 (ix2 r k)
  refine congrArg (V c main_arg0) (funext fun a => Fin.ext ?_)
  obtain ⟨e0, e1, -⟩ := block_index0 t
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weights' one block is the whole array. -/
theorem weights_block (c : Dev nD) (t : Fin cfg0.N) (y : S128x128.Idx) : iblk0 V c 1 t y = V c main_arg1 y := by
  show V c main_arg1 (((cfg0.win 1).blk t).view.emb y) = V c main_arg1 y
  refine congrArg (V c main_arg1) (funext fun a => Fin.ext ?_)
  obtain ⟨-, -, e0, e1, -⟩ := block_index0 t
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias's one block is the whole array. -/
theorem bias_block (c : Dev nD) (t : Fin cfg0.N) (y : S128.Idx) : iblk0 V c 2 t y = V c main_arg2 y := by
  show V c main_arg2 (((cfg0.win 2).blk t).view.emb y) = V c main_arg2 y
  refine congrArg (V c main_arg2) (funext fun a => Fin.ext ?_)
  obtain ⟨-, -, -, -, e0, -⟩ := block_index0 t
  match a with
  | ⟨0, _⟩ => show win0_2.index t (0 : Fin 1) * 128 + 1 * (y 0).val = (y 0).val; rw [e0]; omega

/-- Row `p` of the row scales' block at point `t` is row `5000 t + p` of the column. -/
theorem scales_block (c : Dev nD) (t : Fin cfg0.N) (p : Fin 5000) (r : Fin 50000) (hr : r.val = t.val * 5000 + p.val) :
    iblk0 V c 3 t (ix2 p (0 : Fin 1)) = V c main_v8 (ix2 r (0 : Fin 1)) := by
  show V c main_v8 (((cfg0.win 3).blk t).view.emb (ix2 p (0 : Fin 1))) = V c main_v8 (ix2 r (0 : Fin 1))
  refine congrArg (V c main_v8) (funext fun a => Fin.ext ?_)
  obtain ⟨-, -, -, -, -, e0, e1, -⟩ := block_index0 t
  match a with
  | ⟨0, _⟩ => show win0_3.index t (0 : Fin 2) * 5000 + 1 * p.val = r.val; rw [e0, hr]; omega
  | ⟨1, _⟩ => show win0_3.index t (1 : Fin 2) * 1 + 1 * (0 : Fin 1).val = (0 : Fin 1).val; rw [e1]; rfl

/-- Entry `(p, q)` of the output's block at point `t` is entry `(5000 t + p, q)` of the array. -/
theorem output_block_index (t : Fin cfg0.N) (p : Fin 5000) (q : Fin 128) (r : Fin 50000) (hr : r.val = t.val * 5000 + p.val) :
    ((cfg0.win 4).blk t).view.emb (ix2 p q) = ix2 r q := by
  funext a; apply Fin.ext
  obtain ⟨-, -, -, -, -, -, -, e0, e1⟩ := block_index0 t
  match a with
  | ⟨0, _⟩ => show win0_4.index t (0 : Fin 2) * 5000 + 1 * p.val = r.val; rw [e0, hr]; omega
  | ⟨1, _⟩ => show win0_4.index t (1 : Fin 2) * 128 + 1 * q.val = q.val; rw [e1]; omega

/-- What point `t` writes back is row block `t` of the scaled projection of the arrays the region finds: the body's value
    is the scaled projection of the loaded blocks, and that function is row-local. -/
theorem projection_flushed (c : Dev nD) (t : Fin cfg0.N) :
    (dat0 V c).flushed 4 t = ((cfg0.win 4).blk t).view.read (Elt Ideal)
      (scaledProjection (n := 50000) (V c main_arg0) (V c main_arg1) (V c main_arg2) (V c main_v8)) := by
  show (cfg0.win 4).cut (grid0.coords t) ((dat0 V c).after 4 t) = _
  rw [after0_4]
  unfold out0_4
  rw [View.canon_unit_zero zero_offsets2]
  simp only [View.ld_unit_zero (S := S5000x128) zero_offsets2, View.ld_unit_zero (S := S128x128) zero_offsets2,
    View.ld_unit_zero (S := S128) zero_offsets1, View.ld_unit_zero (S := S5000x1) zero_offsets2]
  rw [projection_block]
  funext j
  obtain ⟨p, q, rfl⟩ : ∃ (p : Fin 5000) (q : Fin 128), j = ix2 p q := ⟨j 0, j 1, eq_ix2 j⟩
  have ht := point_lt0 t
  have hr : (⟨t.val * 5000 + p.val, by have := p.isLt; omega⟩ : Fin 50000).val = t.val * 5000 + p.val := rfl
  show scaledProjection (n := 5000) (iblk0 V c 0 t) (iblk0 V c 1 t) (iblk0 V c 2 t) (iblk0 V c 3 t) (ix2 p q)
    = scaledProjection (n := 50000) (V c main_arg0) (V c main_arg1) (V c main_arg2) (V c main_v8)
        (((cfg0.win 4).blk t).view.emb (ix2 p q))
  rw [output_block_index t p q _ hr, scaledProjection_apply, scaledProjection_apply, scales_block V c t p _ hr,
    bias_block V c t]
  refine congrArg (fun z => (z + V c main_arg2 (ix1 q)) * V c main_v8 (ix2 _ (0 : Fin 1))) ?_
  refine Finset.sum_congr rfl fun k _ => ?_
  rw [features_block V c t p k _ hr, weights_block V c t]

/-- An index of the array is in point `t`'s output block iff each coordinate is in the block's range on its axis. -/
theorem mem_output_block0 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v9).slice (win0_4.rect t)).set ↔ _
  rw [View.set_slice_whole, Rect.mem_set_unit]
  exact Iff.rfl

/-- THE ARRAY region 0 leaves: the scaled projection of the arrays it finds. Row `r` lies in the block of point `r / 5000`,
    so the ten blocks cover the array. -/
theorem projection_array (c : Dev nD) :
    (dat0 V c).arrAt 4 cfg0.N
      = scaledProjection (n := 50000) (V c main_arg0) (V c main_arg1) (V c main_arg2) (V c main_v8) :=
  (dat0 V c).arrAt_eq_of_cover 4 _ (fun t _ => projection_flushed V c t) fun i => by
    have hi0 : (i 0).val < 50000 := (i 0).isLt
    have hi1 : (i 1).val < 128 := (i 1).isLt
    obtain ⟨t, ht⟩ : ∃ t : Fin cfg0.N, t.val = (i 0).val / 5000 :=
      ⟨⟨(i 0).val / 5000, by rw [show cfg0.N = 10 from N_0]; omega⟩, rfl⟩
    refine ⟨t, flush0_4 t, ?_⟩
    rw [mem_output_block0]
    obtain ⟨-, -, -, -, -, -, -, e0, e1⟩ := block_index0 t
    intro a
    match a with
    | ⟨0, _⟩ =>
      show win0_4.index t (0 : Fin 2) * 5000 ≤ (i 0).val ∧ (i 0).val < win0_4.index t (0 : Fin 2) * 5000 + 5000
      rw [e0, ht]; omega
    | ⟨1, _⟩ =>
      show win0_4.index t (1 : Fin 2) * 128 ≤ (i 1).val ∧ (i 1).val < win0_4.index t (1 : Fin 2) * 128 + 128
      rw [e1]; omega

end Cert.KernelIdeal.Arrays

end
-- ==== Proof.ScaleBlock.lean ====
/-
  Region 1's body on one block of rows: the two loaded blocks added, each row scaled by its own factor.
-/
import proofs.«175963_j33956011442288_2_alg».proof.Proof.Gen.KernelIdeal.Skeleton
import proofs.«175963_j33956011442288_2_alg».proof.Proof.GraphLayer
import proofs.«175963_j33956011442288_2_alg».proof.Proof.LibDenseLayers
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.ValueIdx Cert.GraphLayer

/-- The body's stored value, from the three blocks it loads (5000 rows of the scaled projection, of the sum over edges, and
    of the row scales): entry `(p, q)` is the sum of the two matrix entries times the scale of row `p`. The widening from
    bf16 is the identity on the extended reals, and the two casts are to the operand's own shape. -/
theorem scale_block (x0 : Vec Ideal S5000x128 .bf16) (x1 : Vec Ideal S5000x128 .f32) (x2 : Vec Ideal S5000x1 .f32) :
    k1_pay1 (F := Ideal) x0 x1 x2 = scaledSum (n := 5000) x0 x1 x2 := by
  funext j
  obtain ⟨p, q, rfl⟩ : ∃ (p : Fin 5000) (q : Fin 128), j = ix2 p q := ⟨j 0, j 1, eq_ix2 j⟩
  rw [scaledSum_apply]
  unfold k1_pay1
  rw [mulf_apply, addf_apply, extf_apply]
  rw [DenseLayers.broadcastTo_column_apply, shapeCast_self, shapeCast_self, shapeCast_self]

end Cert.KernelIdeal.Blocks

end
-- ==== Proof.ScaleArray.lean ====
/-
  Region 1's output array: the ten row blocks the grid points write back are the row blocks of ONE function of the arrays
  the region finds, the row-scaled sum, and they tile the array.
-/
import proofs.«175963_j33956011442288_2_alg».proof.Proof.Gen.KernelIdeal.Frame
import proofs.«175963_j33956011442288_2_alg».proof.Proof.ScaleBlock

set_option maxRecDepth 16384

noncomputable section

namespace Cert.KernelIdeal.Arrays

open Cert.KernelIdeal Cert.KernelIdeal.Gen Cert.KernelIdeal.Blocks Idealize.ShloMosaic Idealize.ShloMosaic.ValueIdx
open Idealize.ShloMosaic.TcCoe Idealize.SL.Sem Cert.GraphLayer
open Idealize.ShloMosaic.Pipeline (Dat)

variable (V : (c : Dev nD) → (b : Ref sig .tc) → Buf (Elt Ideal) ((c : Thread nD τ).loc b))

theorem no_offsets2 : (![0, 0] : Fin 2 → Nat) = fun _ => 0 := funext fun a => by fin_cases a <;> rfl

/-- Where each window's block sits at grid point `t`: all four windows at row block `t`. -/
theorem block_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem point_lt1 (t : Fin cfg1.N) : t.val < 10 := lt_of_lt_of_eq t.isLt (show cfg1.N = 10 from N_1)

/-- Entry `(p, q)` of the scaled projection's block at point `t` is entry `(5000 t + p, q)` of the array. -/
theorem projected_block (c : Dev nD) (t : Fin cfg1.N) (p : Fin 5000) (q : Fin 128) (r : Fin 50000) (hr : r.val = t.val * 5000 + p.val) :
    iblk1 V c 0 t (ix2 p q) = V c main_v9 (ix2 r q) := by
  show V c main_v9 (((cfg1.win 0).blk t).view.emb (ix2 p q)) = V c main_v9 (ix2 r q)
  refine congrArg (V c main_v9) (funext fun a => Fin.ext ?_)
  obtain ⟨e0, e1, -⟩ := block_index1 t
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Entry `(p, q)` of the edge sums' block at point `t` is entry `(5000 t + p, q)` of the array. -/
theorem edge_sum_block (c : Dev nD) (t : Fin cfg1.N) (p : Fin 5000) (q : Fin 128) (r : Fin 50000) (hr : r.val = t.val * 5000 + p.val) :
    iblk1 V c 1 t (ix2 p q) = V c main_v20 (ix2 r q) := by
  show V c main_v20 (((cfg1.win 1).blk t).view.emb (ix2 p q)) = V c main_v20 (ix2 r q)
  refine congrArg (V c main_v20) (funext fun a => Fin.ext ?_)
  obtain ⟨-, -, e0, e1, -⟩ := block_index1 t
  match a with
  | ⟨0, _⟩ => show win1_1.index t (0 : Fin 2) * 5000 + 1 * p.val = r.val; rw [e0, hr]; omega
  | ⟨1, _⟩ => show win1_1.index t (1 : Fin 2) * 128 + 1 * q.val = q.val; rw [e1]; omega

/-- Row `p` of the row scales' block at point `t` is row `5000 t + p` of the column. -/
theorem row_scales_block (c : Dev nD) (t : Fin cfg1.N) (p : Fin 5000) (r : Fin 50000) (hr : r.val = t.val * 5000 + p.val) :
    iblk1 V c 2 t (ix2 p (0 : Fin 1)) = V c main_v8 (ix2 r (0 : Fin 1)) := by
  show V c main_v8 (((cfg1.win 2).blk t).view.emb (ix2 p (0 : Fin 1))) = V c main_v8 (ix2 r (0 : Fin 1))
  refine congrArg (V c main_v8) (funext fun a => Fin.ext ?_)
  obtain ⟨-, -, -, -, e0, e1, -⟩ := block_index1 t
  match a with
  | ⟨0, _⟩ => show win1_2.index t (0 : Fin 2) * 5000 + 1 * p.val = r.val; rw [e0, hr]; omega
  | ⟨1, _⟩ => show win1_2.index t (1 : Fin 2) * 1 + 1 * (0 : Fin 1).val = (0 : Fin 1).val; rw [e1]; rfl

/-- Entry `(p, q)` of the output's block at point `t` is entry `(5000 t + p, q)` of the array. -/
theorem result_block_index (t : Fin cfg1.N) (p : Fin 5000) (q : Fin 128) (r : Fin 50000) (hr : r.val = t.val * 5000 + p.val) :
    ((cfg1.win 3).blk t).view.emb (ix2 p q) = ix2 r q := by
  funext a; apply Fin.ext
  obtain ⟨-, -, -, -, -, -, e0, e1⟩ := block_index1 t
  match a with
  | ⟨0, _⟩ => show win1_3.index t (0 : Fin 2) * 5000 + 1 * p.val = r.val; rw [e0, hr]; omega
  | ⟨1, _⟩ => show win1_3.index t (1 : Fin 2) * 128 + 1 * q.val = q.val; rw [e1]; omega

/-- What point `t` writes back is row block `t` of the row-scaled sum of the arrays the region finds. -/
theorem scale_flushed (c : Dev nD) (t : Fin cfg1.N) :
    (dat1 V c).flushed 3 t = ((cfg1.win 3).blk t).view.read (Elt Ideal)
      (scaledSum (n := 50000) (V c main_v9) (V c main_v20) (V c main_v8)) := by
  show (cfg1.win 3).cut (grid1.coords t) ((dat1 V c).after 3 t) = _
  rw [after1_3]
  unfold out1_3
  rw [View.canon_unit_zero no_offsets2]
  simp only [View.ld_unit_zero (S := S5000x128) no_offsets2, View.ld_unit_zero (S := S5000x1) no_offsets2]
  rw [scale_block]
  funext j
  obtain ⟨p, q, rfl⟩ : ∃ (p : Fin 5000) (q : Fin 128), j = ix2 p q := ⟨j 0, j 1, eq_ix2 j⟩
  have ht := point_lt1 t
  have hr : (⟨t.val * 5000 + p.val, by have := p.isLt; omega⟩ : Fin 50000).val = t.val * 5000 + p.val := rfl
  show scaledSum (n := 5000) (iblk1 V c 0 t) (iblk1 V c 1 t) (iblk1 V c 2 t) (ix2 p q)
    = scaledSum (n := 50000) (V c main_v9) (V c main_v20) (V c main_v8) (((cfg1.win 3).blk t).view.emb (ix2 p q))
  rw [result_block_index t p q _ hr, scaledSum_apply, scaledSum_apply, row_scales_block V c t p _ hr,
    projected_block V c t p q _ hr, edge_sum_block V c t p q _ hr]

/-- An index of the array is in point `t`'s output block iff each coordinate is in the block's range on its axis. -/
theorem mem_output_block1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v21).slice (win1_3.rect t)).set ↔ _
  rw [View.set_slice_whole, Rect.mem_set_unit]
  exact Iff.rfl

/-- THE ARRAY region 1 leaves: the row-scaled sum of the arrays it finds; the ten blocks cover the array. -/
theorem scale_array (c : Dev nD) :
    (dat1 V c).arrAt 3 cfg1.N = scaledSum (n := 50000) (V c main_v9) (V c main_v20) (V c main_v8) :=
  (dat1 V c).arrAt_eq_of_cover 3 _ (fun t _ => scale_flushed V c t) fun i => by
    have hi0 : (i 0).val < 50000 := (i 0).isLt
    have hi1 : (i 1).val < 128 := (i 1).isLt
    obtain ⟨t, ht⟩ : ∃ t : Fin cfg1.N, t.val = (i 0).val / 5000 :=
      ⟨⟨(i 0).val / 5000, by rw [show cfg1.N = 10 from N_1]; omega⟩, rfl⟩
    refine ⟨t, flush1_3 t, ?_⟩
    rw [mem_output_block1]
    obtain ⟨-, -, -, -, -, -, e0, e1⟩ := block_index1 t
    intro a
    match a with
    | ⟨0, _⟩ =>
      show win1_3.index t (0 : Fin 2) * 5000 ≤ (i 0).val ∧ (i 0).val < win1_3.index t (0 : Fin 2) * 5000 + 5000
      rw [e0, ht]; omega
    | ⟨1, _⟩ =>
      show win1_3.index t (1 : Fin 2) * 128 ≤ (i 1).val ∧ (i 1).val < win1_3.index t (1 : Fin 2) * 128 + 128
      rw [e1]; omega

end Cert.KernelIdeal.Arrays

end
-- ==== Proof.KernelValue.lean ====
/-
  The idealized kernel's result as one function of its arguments: the fold through @main's segments read back.

  * before region 0 the host computes one scale per node, `(in-degree + 1) ^ (-1/2)`, as a column (`rowScales`);
  * region 0 leaves the scaled projection of the features;
  * between the regions the host gathers the projected rows along the edges' sources and adds them up per target
    (`edgeSums`);
  * region 1 leaves the row-scaled sum of the projection and the edge sums: the result.
-/
import proofs.«175963_j33956011442288_2_alg».proof.Proof.Gen.KernelIdeal.Frame
import proofs.«175963_j33956011442288_2_alg».proof.Proof.ProjectionArray
import proofs.«175963_j33956011442288_2_alg».proof.Proof.ScaleArray
import Idealize.ShloMosaic.Lib.StableHlo.Run

set_option maxRecDepth 16384

noncomputable section

namespace Cert.KernelIdeal.Layer

open Cert.KernelIdeal Cert.KernelIdeal.Gen Cert.KernelIdeal.Arrays Idealize.ShloMosaic Idealize.ShloMosaic.ValueIdx
open Idealize.ShloMosaic.TcCoe Idealize.SL.Sem Cert.GraphLayer Idealize.ShloMosaic.StableHlo

/-- One scale per node, as a column: a count of the edges whose source is the node (a scatter-add of ones), plus one,
    raised to the power `-1/2`. -/
def rowScales (col : (⟨S800000, .i32⟩ : BufTy).Contents (Elt Ideal)) : (⟨S50000x1, .f32⟩ : BufTy).Contents (Elt Ideal) :=
  broadcastInDim S50000x1 ![0] Facts₀.bcast_S50000_S50000x1_0
    (Host.powf
      (addf
        (Host.scatterAdd scatter_S50000_S800000x1_S800000_n_0_0_1
          (broadcastInDim S50000 ![] Facts₀.bcast_S_S50000 (constant (F := Ideal) S_ .f32 0x00000000#32))
          (broadcastInDim S800000x1 ![0] Facts₀.bcast_S800000_S800000x1_0 col)
          (broadcastInDim S800000 ![] Facts₀.bcast_S_S800000 (constant (F := Ideal) S_ .f32 0x3F800000#32)))
        (broadcastInDim S50000 ![] Facts₀.bcast_S_S50000 (constant (F := Ideal) S_ .f32 0x3F800000#32)))
      (broadcastInDim S50000 ![] Facts₀.bcast_S_S50000 (constant (F := Ideal) S_ .f32 0xBF000000#32)))

/-- The sum over edges: row `col e` of `H` (a negative index counted from the end), gathered for every edge `e`, added
    into row `row e` of a zero matrix. -/
def edgeSums (H : (⟨S50000x128, .bf16⟩ : BufTy).Contents (Elt Ideal))
    (row col : (⟨S800000, .i32⟩ : BufTy).Contents (Elt Ideal)) : (⟨S50000x128, .f32⟩ : BufTy).Contents (Elt Ideal) :=
  Host.scatterAdd scatter_S50000x128_S800000x1_S800000x128_1_0_0_1
    (broadcastInDim S50000x128 ![] Facts₀.bcast_S_S50000x128 (constant (F := Ideal) S_ .f32 0x00000000#32))
    (broadcastInDim S800000x1 ![0] Facts₀.bcast_S800000_S800000x1_0 row)
    (extf .f32
      (Host.gather gather_S50000x128_S800000x1_S800000x128_1_0_n_n_0_1_1128 H
        (broadcastInDim S800000x1 ![0] Facts₀.bcast_S800000_S800000x1_0
          (select (cmpi .slt col (broadcastInDim S800000 ![] Facts₀.bcast_S_S800000 (constantI S_ 32 0#32)))
            (addi col (broadcastInDim S800000 ![] Facts₀.bcast_S_S800000 (constantI S_ 32 50000#32))) col)))
      Facts₀.bitsLt_bf16_f32)

variable (m : (ℓ : Loc nD τ sig) → Buf (Elt Ideal) ℓ) (ρ : Dev nD → PrngReg)

/-! ## Region 0's entry contents -/

theorem entry_features (c : Dev nD) : V1 m ρ c main_arg0 = m ((c : Thread nD τ).loc main_arg0) := by
  show StableHlo.after hostOps0 (W0 m ρ c) (Proc.devRef .tc main_arg0) = _
  after_results

theorem entry_weights (c : Dev nD) : V1 m ρ c main_arg1 = m ((c : Thread nD τ).loc main_arg1) := by
  show StableHlo.after hostOps0 (W0 m ρ c) (Proc.devRef .tc main_arg1) = _
  after_results

theorem entry_bias (c : Dev nD) : V1 m ρ c main_arg2 = m ((c : Thread nD τ).loc main_arg2) := by
  show StableHlo.after hostOps0 (W0 m ρ c) (Proc.devRef .tc main_arg2) = _
  after_results

theorem entry_scales (c : Dev nD) : V1 m ρ c main_v8 = rowScales (m ((c : Thread nD τ).loc main_arg4)) := by
  show StableHlo.after hostOps0 (W0 m ρ c) (Proc.devRef .tc main_v8) = _
  after_results
  rfl

theorem entry_targets (c : Dev nD) : W1 m ρ c (Proc.devRef .tc main_arg3) = m ((c : Thread nD τ).loc main_arg3) := by
  show StableHlo.after hostOps0 (W0 m ρ c) (Proc.devRef .tc main_arg3) = _
  after_results

theorem entry_sources (c : Dev nD) : W1 m ρ c (Proc.devRef .tc main_arg4) = m ((c : Thread nD τ).loc main_arg4) := by
  show StableHlo.after hostOps0 (W0 m ρ c) (Proc.devRef .tc main_arg4) = _
  after_results

/-! ## Region 0's exit contents -/

/-- The scaled projection of the launch arguments, the scales computed from the edges' sources. -/
def projected (c : Dev nD) : (⟨S50000x128, .bf16⟩ : BufTy).Contents (Elt Ideal) :=
  scaledProjection (n := 50000) (m ((c : Thread nD τ).loc main_arg0)) (m ((c : Thread nD τ).loc main_arg1))
    (m ((c : Thread nD τ).loc main_arg2)) (rowScales (m ((c : Thread nD τ).loc main_arg4)))

/-- Region 0 leaves the scaled projection in its output array. -/
theorem exit_projected (c : Dev nD) : W2 m ρ c (Proc.devRef .tc main_v9) = projected m c := by
  refine (W2_arr m ρ c 4).trans ((projection_array (V1 m ρ) c).trans ?_)
  rw [entry_features, entry_weights, entry_bias, entry_scales]
  rfl

/-- Region 0 only reads the row scales: its exit contents there are the entry's. -/
theorem exit_scales (c : Dev nD) : W2 m ρ c (Proc.devRef .tc main_v8) = rowScales (m ((c : Thread nD τ).loc main_arg4)) :=
  (W2_arr m ρ c 3).trans ((((dat0 (V1 m ρ) c).arrAt_in 3 rfl _).trans (A_eq0 (V1 m ρ) c 3)).trans (entry_scales m ρ c))

theorem exit_targets (c : Dev nD) : W2 m ρ c (Proc.devRef .tc main_arg3) = m ((c : Thread nD τ).loc main_arg3) :=
  (W2_of_ne m ρ c main_arg3 (by decide)).trans (entry_targets m ρ c)

theorem exit_sources (c : Dev nD) : W2 m ρ c (Proc.devRef .tc main_arg4) = m ((c : Thread nD τ).loc main_arg4) :=
  (W2_of_ne m ρ c main_arg4 (by decide)).trans (entry_sources m ρ c)

/-! ## Region 1's entry contents -/

theorem mid_projected (c : Dev nD) : V3 m ρ c main_v9 = projected m c := by
  refine Eq.trans ?_ (exit_projected m ρ c)
  show StableHlo.after hostOps1 (W2 m ρ c) (Proc.devRef .tc main_v9) = _
  after_results

theorem mid_scales (c : Dev nD) : V3 m ρ c main_v8 = rowScales (m ((c : Thread nD τ).loc main_arg4)) := by
  refine Eq.trans ?_ (exit_scales m ρ c)
  show StableHlo.after hostOps1 (W2 m ρ c) (Proc.devRef .tc main_v8) = _
  after_results

/-- Between the regions the host gathers the projection's rows along the edges and adds them up per target. -/
theorem mid_edge_sums (c : Dev nD) :
    V3 m ρ c main_v20
      = edgeSums (projected m c) (m ((c : Thread nD τ).loc main_arg3)) (m ((c : Thread nD τ).loc main_arg4)) := by
  show StableHlo.after hostOps1 (W2 m ρ c) (Proc.devRef .tc main_v20) = _
  after_results
  rw [exit_projected, exit_targets, exit_sources]
  rfl

/-! ## The result -/

/-- THE KERNEL'S RESULT: the last boundary's contents at the result buffer are the row-scaled sum of the scaled projection
    and its sums over the edges. -/
theorem result_value (c : Dev nD) :
    W4 m ρ c (Proc.devRef .tc main_v21)
      = scaledSum (n := 50000) (projected m c)
          (edgeSums (projected m c) (m ((c : Thread nD τ).loc main_arg3)) (m ((c : Thread nD τ).loc main_arg4)))
          (rowScales (m ((c : Thread nD τ).loc main_arg4))) := by
  refine (W4_arr m ρ c 3).trans ((scale_array (V3 m ρ) c).trans ?_)
  rw [mid_projected, mid_edge_sums, mid_scales]

end Cert.KernelIdeal.Layer

end
-- ==== Proof.ReferenceStages.lean ====
/-
  The reference's stages against the layer's two functions: its scaled projection (the product, the bias and the row scale,
  each a host operation read at an index) and its result (the sum with the edge sums, row-scaled).
-/
import proofs.«175963_j33956011442288_2_alg».proof.Proof.Gen.ReferenceIdeal.Read
import proofs.«175963_j33956011442288_2_alg».proof.Proof.GraphLayer
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Read Idealize.ShloMosaic Idealize.ShloMosaic.ValueIdx Cert.GraphLayer

/-- The reference's `(X @ W + b) * dinv[:, None]` is the scaled projection: the product's entry is the sum over the
    contracted coordinate, the bias is read at the column through its two broadcasts, the scale at the row through its
    broadcast along the columns. -/
theorem projected_eq (x0 : (⟨S50000x128, .f32⟩ : BufTy).Contents (Elt Ideal)) (x1 : (⟨S128x128, .f32⟩ : BufTy).Contents (Elt Ideal))
    (x2 : (⟨S128, .f32⟩ : BufTy).Contents (Elt Ideal)) (x4 : (⟨S800000, .i32⟩ : BufTy).Contents (Elt Ideal)) :
    val_main_v14 (F := Ideal) x0 x1 x2 x4 = scaledProjection (n := 50000) x0 x1 x2 (val_main_v12 (F := Ideal) x4) := by
  funext i
  obtain ⟨p, q, rfl⟩ : ∃ (p : Fin 50000) (q : Fin 128), i = ix2 p q := ⟨i 0, i 1, eq_ix2 i⟩
  rw [scaledProjection_apply, val_main_v14_apply, val_main_v11_apply, val_main_v8_apply, val_main_v10_apply,
    val_main_v9_apply, val_main_v13_apply]
  have e1 : ∀ k : Fin 128, lidx_main_v8 (ix2 p q) k = ix2 p k := fun k => funext fun a => by
    match a with
    | ⟨0, _⟩ => rfl
    | ⟨1, _⟩ => rfl
  have e2 : ∀ k : Fin 128, ridx_main_v8 (ix2 p q) k = ix2 k q := fun k => funext fun a => by
    match a with
    | ⟨0, _⟩ => rfl
    | ⟨1, _⟩ => rfl
  have e3 : idx_main_v9 (idx_main_v10 (ix2 p q)) = ix1 q := funext fun a => by
    match a with
    | ⟨0, _⟩ => rfl
  have e4 : idx_main_v13 (ix2 p q) = ix2 p (0 : Fin 1) := funext fun a => by
    match a with
    | ⟨0, _⟩ => rfl
    | ⟨1, _⟩ => rfl
  simp only [e1, e2, e3, e4]
  rfl

/-- The reference's `(Hs + segment_sum …) * dinv[:, None]` is the row-scaled sum. -/
theorem result_eq (x0 : (⟨S50000x128, .f32⟩ : BufTy).Contents (Elt Ideal)) (x1 : (⟨S128x128, .f32⟩ : BufTy).Contents (Elt Ideal))
    (x2 : (⟨S128, .f32⟩ : BufTy).Contents (Elt Ideal)) (x3 x4 : (⟨S800000, .i32⟩ : BufTy).Contents (Elt Ideal)) :
    val_main_v28 (F := Ideal) x0 x1 x2 x3 x4
      = scaledSum (n := 50000) (val_main_v14 (F := Ideal) x0 x1 x2 x4) (val_main_v24 (F := Ideal) x0 x1 x2 x3 x4)
          (val_main_v26 (F := Ideal) x4) := by
  funext i
  obtain ⟨p, q, rfl⟩ : ∃ (p : Fin 50000) (q : Fin 128), i = ix2 p q := ⟨i 0, i 1, eq_ix2 i⟩
  rw [scaledSum_apply, val_main_v28_apply, val_main_v25_apply, val_main_v27_apply]
  have e : idx_main_v27 (ix2 p q) = ix2 p (0 : Fin 1) := funext fun a => by
    match a with
    | ⟨0, _⟩ => rfl
    | ⟨1, _⟩ => rfl
  rw [e]
  rfl

end Cert.ReferenceIdeal.Stages

end
-- ==== Proof.LayerBridge.lean ====
/-
  The reference's result is the kernel's function of the arguments: its scaled projection and its row-scaled sum are the
  layer's two functions (read stage by stage), and the host chains it shares with the kernel — the row scales from the
  edges' sources, the gather along the edges followed by the scatter-add per target — are the same operations on the
  same operands. The kernel gathers rows of a bf16 array and widens them; on the extended reals the widening is the
  identity, so that is the reference's gather.
-/
import proofs.«175963_j33956011442288_2_alg».proof.Proof.KernelValue
import proofs.«175963_j33956011442288_2_alg».proof.Proof.ReferenceStages

noncomputable section

namespace Cert.LayerBridge

open Idealize.ShloMosaic Cert.GraphLayer Cert.ReferenceIdeal Cert.ReferenceIdeal.Read Cert.KernelIdeal.Layer

/-- The reference's row scales, as broadcast for its projection, are the kernel's. -/
theorem scales_eq (x4 : (⟨S800000, .i32⟩ : BufTy).Contents (Elt Ideal)) :
    val_main_v12 (F := Ideal) x4 = rowScales x4 := rfl

/-- The reference's row scales, as broadcast again for its result, are the kernel's. -/
theorem scales_eq' (x4 : (⟨S800000, .i32⟩ : BufTy).Contents (Elt Ideal)) :
    val_main_v26 (F := Ideal) x4 = rowScales x4 := rfl

/-- The reference's sums over the edges of its scaled projection are the kernel's sums of the same matrix. -/
theorem edge_sums_eq (x0 : (⟨S50000x128, .f32⟩ : BufTy).Contents (Elt Ideal)) (x1 : (⟨S128x128, .f32⟩ : BufTy).Contents (Elt Ideal))
    (x2 : (⟨S128, .f32⟩ : BufTy).Contents (Elt Ideal)) (x3 x4 : (⟨S800000, .i32⟩ : BufTy).Contents (Elt Ideal)) :
    val_main_v24 (F := Ideal) x0 x1 x2 x3 x4 = edgeSums (val_main_v14 (F := Ideal) x0 x1 x2 x4) x3 x4 := rfl

/-- THE REFERENCE'S RESULT as the layer's function of the arguments. -/
theorem reference_result (x0 : (⟨S50000x128, .f32⟩ : BufTy).Contents (Elt Ideal)) (x1 : (⟨S128x128, .f32⟩ : BufTy).Contents (Elt Ideal))
    (x2 : (⟨S128, .f32⟩ : BufTy).Contents (Elt Ideal)) (x3 x4 : (⟨S800000, .i32⟩ : BufTy).Contents (Elt Ideal)) :
    val_main_v28 (F := Ideal) x0 x1 x2 x3 x4
      = scaledSum (n := 50000) (scaledProjection (n := 50000) x0 x1 x2 (rowScales x4))
          (edgeSums (scaledProjection (n := 50000) x0 x1 x2 (rowScales x4)) x3 x4) (rowScales x4) := by
  rw [Cert.ReferenceIdeal.Stages.result_eq, edge_sums_eq, scales_eq', Cert.ReferenceIdeal.Stages.projected_eq, scales_eq]

end Cert.LayerBridge

end
-- ==== Proof.lean ====
/-
  The certificate of one graph-convolution layer with symmetric degree scaling: a kernel in two row-tiled regions around
  the host's gather and scatter-add, against the plain formula.

  On the extended reals both programs compute, with `d r = (in-degree of r + 1) ^ (-1/2)`,
  `H (r, c) = (∑ k, X (r, k) * W (k, c) + b c) * d r` and the result `(H (r, c) + ∑ over edges into r of H (source, c)) * d r`,
  by the same operations in the same order: the kernel's roundings to bf16 are the identity there, its matrix product on a
  row block is the whole product's row block, and the host operations between its regions are the reference's own. No
  algebraic law is needed, so the precondition is never opened.

  The three frames are the generated ones (the reference's from its generated run); the idealized kernel is the kernel's own
  text read on the extended reals, with no rewrite to account for, so `preserves` is trivial. For `algebraic`, the kernel's run names its result at the last segment boundary's contents
  (Proof/KernelRun.lean), which read back through the regions and the host stretches are the layer's function of the
  arguments (Proof/KernelValue.lean over Proof/ProjectionArray.lean and Proof/ScaleArray.lean); the reference's run ends at
  the same function (Proof/LayerBridge.lean over Proof/ReferenceStages.lean).
-/
import proofs.«175963_j33956011442288_2_alg».proof.Defs
import proofs.«175963_j33956011442288_2_alg».proof.Proof.Gen.Kernel
import proofs.«175963_j33956011442288_2_alg».proof.Proof.Gen.Kernel.Skeleton
import proofs.«175963_j33956011442288_2_alg».proof.Proof.Gen.Kernel.Launch
import proofs.«175963_j33956011442288_2_alg».proof.Proof.Gen.Kernel.Points
import proofs.«175963_j33956011442288_2_alg».proof.Proof.Gen.Kernel.Frame
import proofs.«175963_j33956011442288_2_alg».proof.Proof.Gen.KernelIdeal
import proofs.«175963_j33956011442288_2_alg».proof.Proof.Gen.KernelIdeal.Skeleton
import proofs.«175963_j33956011442288_2_alg».proof.Proof.Gen.KernelIdeal.Launch
import proofs.«175963_j33956011442288_2_alg».proof.Proof.Gen.KernelIdeal.Points
import proofs.«175963_j33956011442288_2_alg».proof.Proof.Gen.KernelIdeal.Frame
import proofs.«175963_j33956011442288_2_alg».proof.Proof.Gen.ReferenceIdeal
import proofs.«175963_j33956011442288_2_alg».proof.Proof.Gen.ReferenceIdeal.Run
import proofs.«175963_j33956011442288_2_alg».proof.Proof.Gen.ReferenceIdeal.Read
import proofs.«175963_j33956011442288_2_alg».proof.Proof.Gen.Pre_finite_inputs
import proofs.«175963_j33956011442288_2_alg».proof.Proof.KernelRun
import proofs.«175963_j33956011442288_2_alg».proof.Proof.KernelValue
import proofs.«175963_j33956011442288_2_alg».proof.Proof.LayerBridge
import Idealize.ShloMosaic.Adequacy
import Idealize.ShloMosaic.Init

noncomputable section

namespace Cert.Proof

open Idealize.ShloMosaic Idealize.ShloMosaic.TcCoe Idealize.SL.Sem Cert.GraphLayer

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text: the statement is `True`. -/
theorem preserves : Cert.preserves_Kernel_KernelIdeal := trivial

/-- Both runs end at the layer's function of the (agreeing) arguments. -/
theorem algebraic : Cert.algebraic_KernelIdeal_ReferenceIdeal := by
  intro m ρ m' ρ' _ hagree
  refine ⟨fun c => scaledSum (n := 50000) (Cert.KernelIdeal.Layer.projected m c)
      (Cert.KernelIdeal.Layer.edgeSums (Cert.KernelIdeal.Layer.projected m c)
        (m ((c : Thread Cert.KernelIdeal.nD Cert.KernelIdeal.τ).loc Cert.KernelIdeal.main_arg3))
        (m ((c : Thread Cert.KernelIdeal.nD Cert.KernelIdeal.τ).loc Cert.KernelIdeal.main_arg4)))
      (Cert.KernelIdeal.Layer.rowScales (m ((c : Thread Cert.KernelIdeal.nD Cert.KernelIdeal.τ).loc Cert.KernelIdeal.main_arg4))),
    ?_, ?_⟩
  · exact (θ_run Cert.KernelIdeal.defs _ _).mono
      (fun r h c => ⟨(h c).1.trans (Cert.KernelIdeal.Layer.result_value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.LayerBridge.reference_result,
      (hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
